-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 83
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x128, .f32⟩
  | .hbm, ⟨73, _⟩ => ⟨S850000x1, .f32⟩
  | .hbm, ⟨74, _⟩ => ⟨S850000x128, .f32⟩
  | .hbm, ⟨75, _⟩ => ⟨S850000x128, .f32⟩
  | .hbm, ⟨76, _⟩ => ⟨S_, .f32⟩
  | .hbm, ⟨77, _⟩ => ⟨S50000x128, .f32⟩
  | .hbm, ⟨78, _⟩ => ⟨S850000x1, .i32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.HostChain.lean ====
/-
  The host side of the two-layer graph convolution, as functions, and the idealized kernel's buffer contents at its
  segment boundaries read through them.

  The graph has 50000 nodes and 800000 edges, given as a [2, 800000] integer array `e` of endpoints; a self loop is
  added at every node, so there are 850000 edges: `src e` and `dst e` are the two rows of `e`, each followed by
  0, 1, …, 49999. The degree of a node is the number of edges ending there (`deg`: ones scattered and added at `dst`),
  its normalizer is `deg^(-1/2)` where the degree is positive and 0 elsewhere (`dinv`), and an edge's weight is the
  product of its two endpoints' normalizers (`nrm`). One aggregation step `agg h e` gathers the row `h[src]` of a
  [50000,128] array for every edge, scales it by the edge's weight, and adds it into row `dst` of a zero array. A
  negative index wraps once by 50000 before a gather (`wrap`), as the traced program does. The layer's bias is added
  along every row (`rows`).

  The program applies: the weights `nrm`; the first matrix product (a region); `agg`; the second region (bias, maximum
  with zero, matrix product); `agg` again; the second bias. The boundary lemmas below say exactly this of the frame
  module's folds `W3`, `W5`, `W7`, with each region's output array left as the region's proof data state it.
-/
import proofs.«134484_j85899345920420_1_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]

/-- The sources of the 850000 edges: row 0 of the endpoint array, then every node once (its self loop). -/
def src (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The targets of the 850000 edges: row 1 of the endpoint array, then every node once. -/
def dst (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- Node indices as a gather takes them: a negative index moved up by 50000, as one column. -/
def wrap (s : (⟨S850000, .i32⟩ : BufTy).Contents (Elt F)) : (⟨S850000x1, .i32⟩ : BufTy).Contents (Elt F) :=
  broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s)

/-- A node's degree: one added for every edge that ends there. -/
def deg (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32))

/-- A node's normalizer: the inverse square root of its degree where that is positive, zero elsewhere. -/
def dinv (e : (⟨S2x800000, .i32⟩ : BufTy).Contents (Elt F)) : (⟨S50000, .f32⟩ : BufTy).Contents (Elt F) :=
  select (cmpf (F := F) .ogt (deg e) (broadcastInDim S50000 ![] bcast_S_S50000 (constant S_ .f32 0x00000000#32))) (Host.rsqrt (deg e)) (broadcastInDim S50000 ![] bcast_S_S50000 (id (constant S_ .f32 0x00000000#32)))

/-- An edge's weight: the product of its two endpoints' normalizers. -/
def nrm (e : (⟨S2x800000, .i32⟩ : BufTy).Contents (Elt F)) : (⟨S850000, .f32⟩ : BufTy).Contents (Elt F) :=
  mulf (Host.gather gather_S50000_S850000x1_S850000_n_0_n_n_0_1_1 (dinv e) (wrap (src e))) (Host.gather gather_S50000_S850000x1_S850000_n_0_n_n_0_1_1 (dinv e) (wrap (dst e)))

/-- One aggregation step: for every edge the source's row of `h`, scaled by the edge's weight, added into the
    target's row of a zero array. -/
def agg (h : (⟨S50000x128, .f32⟩ : BufTy).Contents (Elt F)) (e : (⟨S2x800000, .i32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 (dst e)) (mulf (Host.gather gather_S50000x128_S850000x1_S850000x128_1_0_n_n_0_1_1128 h (wrap (src e))) (broadcastInDim S850000x128 ![0, 1] bcast_S850000x1_S850000x128_0_1 (broadcastInDim S850000x1 ![0] bcast_S850000_S850000x1_0 (nrm e))))

/-- A bias of 128 entries repeated along the 50000 rows. -/
def rows (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

variable (m : (ℓ : Loc nD τ sig) → Buf (Elt F) ℓ) (ρ : Dev nD → PrngReg)

/-! ## At the first region's entry -/

/-- The edge sources, as computed before the first region. -/
theorem W3_src (c : Dev nD) : W3 m ρ c (Proc.devRef .tc main_v3) = src (m ((c : Thread nD τ).loc main_arg1)) := by
  show StableHlo.after hostOps0_2 (StableHlo.after hostOps0_1 (StableHlo.after hostOps0 (W0 m ρ c))) (Proc.devRef .tc main_v3) = _
  after_results_simp <;> rfl

/-- The edge targets, as computed before the first region. -/
theorem W3_dst (c : Dev nD) : W3 m ρ c (Proc.devRef .tc main_v6) = dst (m ((c : Thread nD τ).loc main_arg1)) := by
  show StableHlo.after hostOps0_2 (StableHlo.after hostOps0_1 (StableHlo.after hostOps0 (W0 m ρ c))) (Proc.devRef .tc main_v6) = _
  after_results_simp <;> rfl

/-- The edge weights, as computed before the first region. -/
theorem W3_nrm (c : Dev nD) : W3 m ρ c (Proc.devRef .tc main_v29) = nrm (m ((c : Thread nD τ).loc main_arg1)) := by
  show StableHlo.after hostOps0_2 (StableHlo.after hostOps0_1 (StableHlo.after hostOps0 (W0 m ρ c))) (Proc.devRef .tc main_v29) = _
  after_results_simp <;> rfl

/-- No host operation before the first region writes an argument: the features, -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
/-- the first layer's weights, -/
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
/-- the first layer's bias, -/
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
/-- the second layer's weights, -/
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
/-- the second layer's bias. -/
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-! ## At the second region's entry: after the first region and the first aggregation -/

/-- The first region writes its output array only. -/
theorem W4_v30 (c : Dev nD) : W4 m ρ c (Proc.devRef .tc main_v30) = (dat0 (V3 m ρ) c).arrAt 2 cfg0.N := W4_arr m ρ c 2

/-- What the second region finds in its first window's array: the aggregation of the first region's output. -/
theorem W5_v43 (c : Dev nD) :
    W5 m ρ c (Proc.devRef .tc main_v43) = agg ((dat0 (V3 m ρ) c).arrAt 2 cfg0.N) (m ((c : Thread nD τ).loc main_arg1)) := by
  show StableHlo.after hostOps1 (W4 m ρ c) (Proc.devRef .tc main_v43) = _
  after_results_simp
  rw [W4_v30, W4_of_ne m ρ c main_v3 (by decide), W4_of_ne m ρ c main_v6 (by decide), W4_of_ne m ρ c main_v29 (by decide),
    W3_src, W3_dst, W3_nrm]
  rfl

/-- The edge data and the remaining arguments pass the first region and the first aggregation unchanged. -/
theorem W5_src (c : Dev nD) : W5 m ρ c (Proc.devRef .tc main_v3) = src (m ((c : Thread nD τ).loc main_arg1)) := by
  show StableHlo.after hostOps1 (W4 m ρ c) (Proc.devRef .tc main_v3) = _
  after_results_simp
  rw [W4_of_ne m ρ c main_v3 (by decide)]; exact W3_src m ρ c
theorem W5_dst (c : Dev nD) : W5 m ρ c (Proc.devRef .tc main_v6) = dst (m ((c : Thread nD τ).loc main_arg1)) := by
  show StableHlo.after hostOps1 (W4 m ρ c) (Proc.devRef .tc main_v6) = _
  after_results_simp
  rw [W4_of_ne m ρ c main_v6 (by decide)]; exact W3_dst m ρ c
theorem W5_nrm (c : Dev nD) : W5 m ρ c (Proc.devRef .tc main_v29) = nrm (m ((c : Thread nD τ).loc main_arg1)) := by
  show StableHlo.after hostOps1 (W4 m ρ c) (Proc.devRef .tc main_v29) = _
  after_results_simp
  rw [W4_of_ne m ρ c main_v29 (by decide)]; exact W3_nrm m ρ c
theorem W5_arg3 (c : Dev nD) : W5 m ρ c (Proc.devRef .tc main_arg3) = m ((c : Thread nD τ).loc main_arg3) := by
  show StableHlo.after hostOps1 (W4 m ρ c) (Proc.devRef .tc main_arg3) = _
  after_results_simp
  rw [W4_of_ne m ρ c main_arg3 (by decide)]; exact W3_arg3 m ρ c
theorem W5_arg4 (c : Dev nD) : W5 m ρ c (Proc.devRef .tc main_arg4) = m ((c : Thread nD τ).loc main_arg4) := by
  show StableHlo.after hostOps1 (W4 m ρ c) (Proc.devRef .tc main_arg4) = _
  after_results_simp
  rw [W4_of_ne m ρ c main_arg4 (by decide)]; exact W3_arg4 m ρ c
theorem W5_arg5 (c : Dev nD) : W5 m ρ c (Proc.devRef .tc main_arg5) = m ((c : Thread nD τ).loc main_arg5) := by
  show StableHlo.after hostOps1 (W4 m ρ c) (Proc.devRef .tc main_arg5) = _
  after_results_simp
  rw [W4_of_ne m ρ c main_arg5 (by decide)]; exact W3_arg5 m ρ c

/-! ## At the return: after the second region, the second aggregation and the second bias -/

/-- The second region writes its output array only. -/
theorem W6_v44 (c : Dev nD) : W6 m ρ c (Proc.devRef .tc main_v44) = (dat1 (V5 m ρ) c).arrAt 3 cfg1.N := W6_arr m ρ c 3

/-- THE RESULT: the aggregation of the second region's output, the second bias added along every row. -/
theorem W7_v60 (c : Dev nD) :
    W7 m ρ c (Proc.devRef .tc main_v60)
      = addf (agg ((dat1 (V5 m ρ) c).arrAt 3 cfg1.N) (m ((c : Thread nD τ).loc main_arg1))) (rows (m ((c : Thread nD τ).loc main_arg5))) := by
  show StableHlo.after hostOps2 (W6 m ρ c) (Proc.devRef .tc main_v60) = _
  after_results_simp
  rw [W6_v44, W6_of_ne m ρ c main_v3 (by decide), W6_of_ne m ρ c main_v6 (by decide), W6_of_ne m ρ c main_v29 (by decide),
    W6_of_ne m ρ c main_arg5 (by decide), W5_src, W5_dst, W5_nrm, W5_arg5]
  rfl

end Cert.KernelIdeal.Chain

end
-- ==== Proof.Spec.lean ====
/-
  The two dense products of a two-layer graph convolution, each as ONE function of whole arrays on the extended
  reals: `dense x w` is the matrix product `x · w` of a [50000,128] array with a [128,128] one, entry `(r, j)` the
  sum over `k` of `x[r,k] · w[k,j]`; `denseRelu a b w` is `relu (a + b) · w`, the bias `b` added along each row
  and the maximum with zero taken entry by entry before the product. Nothing here mentions a program: the kernel's
  two regions and the reference's two `dot_general`s are each shown to compute these.
-/
import Idealize.ShloMosaic.PureOps.Ideal
import Idealize.ShloMosaic.Lib.ValueIdx

noncomputable section

namespace Cert.Gcn

open Idealize.ShloMosaic Idealize.ShloMosaic.ValueIdx

/-- Node features: 50000 rows of 128 entries. -/
abbrev Nodes : Shape := ⟨2, ![50000, 128]⟩
/-- A layer's weights: 128 × 128. -/
abbrev Weights : Shape := ⟨2, ![128, 128]⟩
/-- A layer's bias: 128 entries. -/
abbrev Bias : Shape := ⟨1, ![128]⟩

/-- `x · w`: entry `(r, j)` is `∑ k, x[r,k] · w[k,j]`. -/
def dense (x : Nodes.Idx → EReal) (w : Weights.Idx → EReal) : Nodes.Idx → EReal :=
  fun i => ∑ k : Fin 128, x (ix2 (i 0) k) * w (ix2 k (i 1))

/-- `relu (a + b) · w`: entry `(r, j)` is `∑ k, max (a[r,k] + b[k]) 0 · w[k,j]`; the zero is the value of the
    f32 pattern of all zero bits. -/
def denseRelu (a : Nodes.Idx → EReal) (b : Bias.Idx → EReal) (w : Weights.Idx → EReal) : Nodes.Idx → EReal :=
  fun i => ∑ k : Fin 128, max (a (ix2 (i 0) k) + b (ix1 k)) (Ideal.ofBits .f32 0x00000000#32) * w (ix2 k (i 1))

end Cert.Gcn

end
-- ==== Proof.RefValue.lean ====
/-
  The reference program's result in the vocabulary of the host chain: the same normalization and the same two
  aggregation steps as the kernel's program, with a plain matrix product `x · W1` where the kernel has its first region
  and `relu (· + b1) · W2` where it has its second. On the extended reals a host matrix product read at `(r, j)` is the
  sum over the contracted coordinate `k` of the left operand at `(r, k)` times the right operand at `(k, j)`, so the two
  products are the specification's `dense` and `denseRelu`.
-/
import proofs.«134484_j85899345920420_1_alg».proof.Proof.RefRun
import proofs.«134484_j85899345920420_1_alg».proof.Proof.HostChain
import proofs.«134484_j85899345920420_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.ShloMosaic.ValueIdx Idealize.SL.Sem

/-! ## A host matrix product [50000,128] · [128,128] read at an index -/

/-- The dimension numbers of the reference's products: axis 1 of the left operand against axis 0 of the right. -/
abbrev DD : DotDims S50000x128 S128x128 S50000x128 := dot_S50000x128_S128x128_S50000x128_1_0_0_1_n_n

/-- The left operand's row is the output's row. -/
theorem lhs_row (i : S50000x128.Idx) (q : DD.contr.Idx) : (DD.lhsIdx i q 0).val = (i 0).val := by
  unfold DotDims.lhsIdx
  rw [dif_neg (show ¬(0 : Fin S50000x128.rank) ∈ DD.lhsBatch by decide), dif_pos (show (0 : Fin S50000x128.rank) ∈ DD.lhsNonContracting by decide)]
  rfl
/-- The left operand's column is the contracted coordinate. -/
theorem lhs_col (i : S50000x128.Idx) (q : DD.contr.Idx) : (DD.lhsIdx i q 1).val = (q ⟨0, by decide⟩).val :=
  DD.lhsIdx_val_of_single rfl i q
/-- The right operand's row is the contracted coordinate. -/
theorem rhs_row (i : S50000x128.Idx) (q : DD.contr.Idx) : (DD.rhsIdx i q 0).val = (q ⟨0, by decide⟩).val :=
  DD.rhsIdx_val_of_single rfl i q
/-- The right operand's column is the output's column. -/
theorem rhs_col (i : S50000x128.Idx) (q : DD.contr.Idx) : (DD.rhsIdx i q 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- The product read at `(r, j)`: the sum over `k` of `y[r,k] · w[k,j]`. -/
theorem dot_apply (y : FVec Ideal S50000x128 .f32) (w : FVec Ideal S128x128 .f32) (r : Fin 50000) (j : Fin 128) :
    Host.dotGeneral (F := Ideal) DD none y w (ix2 r j) = ∑ k : Fin 128, y (ix2 r k) * w (ix2 k j) := by
  simp only [Host.dotGeneral]
  rw [Ideal.dotGeneral_apply, ← Equiv.sum_comp (ValueIdx.contrEquiv1 DD 128 rfl rfl).symm]
  refine Finset.sum_congr rfl fun k _ => ?_
  have hk := ValueIdx.contrEquiv1_symm_val DD 128 rfl rfl k
  have el : DD.lhsIdx (ix2 r j) ((ValueIdx.contrEquiv1 DD 128 rfl rfl).symm k) = ix2 r k := funext fun a => Fin.ext (by
    match a with
    | ⟨0, _⟩ => exact lhs_row _ _
    | ⟨1, _⟩ => exact (lhs_col _ _).trans hk)
  have er : DD.rhsIdx (ix2 r j) ((ValueIdx.contrEquiv1 DD 128 rfl rfl).symm k) = ix2 k j := funext fun a => Fin.ext (by
    match a with
    | ⟨0, _⟩ => exact (rhs_row _ _).trans hk
    | ⟨1, _⟩ => exact rhs_col _ _)
  exact congrArg₂ (· * ·) (congrArg y el) (congrArg w er)

/-- The first layer's product is the specification's. -/
theorem dot_eq_dense (y : FVec Ideal S50000x128 .f32) (w : FVec Ideal S128x128 .f32) :
    Host.dotGeneral (F := Ideal) DD none y w = Cert.Gcn.dense y w := by
  funext i
  obtain ⟨r, j, rfl⟩ : ∃ (r : Fin 50000) (j : Fin 128), i = ix2 r j := ⟨i 0, i 1, eq_ix2 i⟩
  exact dot_apply y w r j

/-- A bias repeated along the rows, read at `(r, k)`, is the bias at `k`. -/
theorem rows_apply (b : FVec Ideal Cert.KernelIdeal.S128 .f32) (r : Fin 50000) (k : Fin 128) :
    Cert.KernelIdeal.Chain.rows (F := Ideal) b (ix2 r k) = b (ix1 k) := by
  unfold Cert.KernelIdeal.Chain.rows
  refine (broadcastInDim_apply _ Cert.KernelIdeal.Facts₀.bcast_S1x128_S50000x128_0_1 _ (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])).trans ?_
  exact broadcastInDim_apply _ Cert.KernelIdeal.Facts₀.bcast_S128_S1x128_1 b (ix2 (0 : Fin 1) k) (ix1 k) (fun a => match a with
    | ⟨0, _⟩ => by show k.val = if (128 : Nat) = 1 then 0 else k.val; rw [if_neg (by decide)])

/-- The second layer's product, of the rectified biased input, is the specification's. -/
theorem dot_relu_eq_denseRelu (a : FVec Ideal S50000x128 .f32) (b : FVec Ideal Cert.KernelIdeal.S128 .f32) (w : FVec Ideal S128x128 .f32) :
    Host.dotGeneral (F := Ideal) DD none
        (maximumf (addf a (Cert.KernelIdeal.Chain.rows (F := Ideal) b)) (broadcastInDim S50000x128 ![] bcast_S_S50000x128 (constant (F := Ideal) S_ .f32 0x00000000#32))) w
      = Cert.Gcn.denseRelu a b w := by
  funext i
  obtain ⟨r, j, rfl⟩ : ∃ (r : Fin 50000) (j : Fin 128), i = ix2 r j := ⟨i 0, i 1, eq_ix2 i⟩
  refine (dot_apply _ w r j).trans ?_
  show _ = ∑ k : Fin 128, max (a (ix2 r k) + b (ix1 k)) (Ideal.ofBits .f32 0x00000000#32) * w (ix2 k j)
  refine Finset.sum_congr rfl fun k _ => ?_
  refine congrArg₂ (· * ·) ?_ rfl
  show max (a (ix2 r k) + Cert.KernelIdeal.Chain.rows (F := Ideal) b (ix2 r k)) (broadcastInDim S50000x128 ![] bcast_S_S50000x128 (constant (F := Ideal) S_ .f32 0x00000000#32) (ix2 r k)) = _
  rw [rows_apply]
  rfl

/-! ## The reference's result -/

variable {F : FTy → Type} [FloatOps F]

/-- The reference's composed result term IS: normalize, multiply by the first weights, aggregate, add the first bias,
    rectify, multiply by the second weights, aggregate, add the second bias. -/
theorem res_eq (m : (ℓ : Loc nD τ sig) → Buf (Elt F) ℓ) (c : Dev nD) :
    Cert.ReferenceIdeal.ValueP.res_main_v64 (F := F) m c
      = addf (Cert.KernelIdeal.Chain.agg (F := F)
            (Host.dotGeneral (F := F) DD none
              (maximumf (addf (Cert.KernelIdeal.Chain.agg (F := F) (Host.dotGeneral (F := F) DD none (m ((c.tc : Thread nD τ).loc main_arg0)) (m ((c.tc : Thread nD τ).loc main_arg2))) (m ((c.tc : Thread nD τ).loc main_arg1)))
                  (Cert.KernelIdeal.Chain.rows (F := F) (m ((c.tc : Thread nD τ).loc main_arg3))))
                (broadcastInDim S50000x128 ![] bcast_S_S50000x128 (constant (F := F) S_ .f32 0x00000000#32)))
              (m ((c.tc : Thread nD τ).loc main_arg4)))
            (m ((c.tc : Thread nD τ).loc main_arg1)))
          (Cert.KernelIdeal.Chain.rows (F := F) (m ((c.tc : Thread nD τ).loc main_arg5))) := by
  unfold Cert.ReferenceIdeal.ValueP.res_main_v64
  rfl

end Cert.ReferenceIdeal.RefValue

end
-- ==== Proof.KernelRun.lean ====
/-
  The idealized kernel's run with its result kept. The program is seven segments in order: three stretches of host
  operations, the first matrix-product region, a stretch of host operations, the second region, a last stretch of
  host operations. At every segment boundary the contents of the core's buffers are a fold from the launch memory
  (`W0` … `W7` of the frame module: a stretch applies its operations, a region replaces its arrays by what its
  write-backs leave). Every weakly fair execution terminates with EVERY unscoped buffer at the last boundary's contents
  `W7`; read at the result buffer this is the result's value, read at the argument buffers it is the launch memory.
-/
import proofs.«134484_j85899345920420_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting, with the
    result buffer at the last boundary's contents and the argument arrays as launched: the launch over the seven
    segments, the last thread state (every unscoped buffer at `W7`) read against the final state. -/
theorem run_value : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.Region0Value.lean ====
/-
  Region 0 of the two-layer graph convolution, read as mathematics: the array the region leaves in its output
  window is the dense product `x · w` of the [50000,128] array `x` and the [128,128] array `w` that the region finds
  in its two input windows. The grid has ten points; point `t` holds rows `5000·t … 5000·t + 4999` of `x` (all 128
  columns), the whole of `w`, and writes back the same rows of the result. An entry `(r, j)` of a block depends on row
  `r` of the block of `x` and column `j` of `w` only, so block `t` of the result is block `t` of `x · w`; the ten
  blocks tile the 50000 rows, so the array is `x · w`.
-/
import proofs.«134484_j85899345920420_1_alg».proof.Proof.Gen.KernelIdeal.Frame
import proofs.«134484_j85899345920420_1_alg».proof.Proof.Spec
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's product at an entry -/

/-- The product's dimension numbers: axis 1 of the left operand is contracted against axis 0 of the right one; the
    left's axis 0 and the right's axis 1 are the result's rows and columns. -/
abbrev mm : DotDims S5000x128 S128x128 S5000x128 := dot_S5000x128_S128x128_S5000x128_1_0_0_1_n_n

/-- The left operand is read in the result's row … -/
theorem lhs_row (i : S5000x128.Idx) (q : mm.contr.Idx) : (mm.lhsIdx i q 0).val = (i 0).val := by
  unfold DotDims.lhsIdx
  rw [dif_neg (show ¬(0 : Fin S5000x128.rank) ∈ mm.lhsBatch by decide), dif_pos (show (0 : Fin S5000x128.rank) ∈ mm.lhsNonContracting by decide)]
  rfl
/-- … at the contraction position's column. -/
theorem lhs_col (i : S5000x128.Idx) (q : mm.contr.Idx) : (mm.lhsIdx i q 1).val = (q ⟨0, by decide⟩).val :=
  mm.lhsIdx_val_of_single rfl i q
/-- The right operand is read at the contraction position's row … -/
theorem rhs_row (i : S5000x128.Idx) (q : mm.contr.Idx) : (mm.rhsIdx i q 0).val = (q ⟨0, by decide⟩).val :=
  mm.rhsIdx_val_of_single rfl i q
/-- … in the result's column. -/
theorem rhs_col (i : S5000x128.Idx) (q : mm.contr.Idx) : (mm.rhsIdx i q 1).val = (i 1).val := by
  unfold DotDims.rhsIdx
  rw [dif_neg (show ¬(1 : Fin S128x128.rank) ∈ mm.rhsBatch by decide), dif_pos (show (1 : Fin S128x128.rank) ∈ mm.rhsNonContracting by decide)]
  rfl

/-- ENTRY `(p, q)` OF THE BODY'S RESULT is the sum over `k` of `x0[p,k] · x1[k,q]`: both operands are narrowed to
    another format first, which on the extended reals changes nothing, and the product accumulates into the zero array. -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply mm none _ _ (ix2 p q)).trans ?_
  rw [← Equiv.sum_comp (ValueIdx.contrEquiv1 mm 128 rfl rfl).symm]
  refine Finset.sum_congr rfl fun k _ => ?_
  have hk := ValueIdx.contrEquiv1_symm_val mm 128 rfl rfl k
  have el : mm.lhsIdx (ix2 p q) ((ValueIdx.contrEquiv1 mm 128 rfl rfl).symm k) = ix2 p k := funext fun a => Fin.ext (by
    match a with
    | ⟨0, _⟩ => exact lhs_row _ _
    | ⟨1, _⟩ => exact (lhs_col _ _).trans hk)
  have er : mm.rhsIdx (ix2 p q) ((ValueIdx.contrEquiv1 mm 128 rfl rfl).symm k) = ix2 k q := funext fun a => Fin.ext (by
    match a with
    | ⟨0, _⟩ => exact (rhs_row _ _).trans hk
    | ⟨1, _⟩ => exact rhs_col _ _)
  rw [el, er]
  rfl

/-! ## The grid's blocks -/

theorem hz : (![0, 0] : Fin 2 → Nat) = fun _ => 0 := funext fun a => by fin_cases a <;> rfl

/-- The printed index maps, decided once over the ten grid points: the block of `x` and the block of the result sit at
    the same block row (column block 0), the block of `w` is always block (0, 0), and the block rows stay below ten. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every one of the ten block rows is some grid point's. -/
theorem idx_onto : ∀ q : Fin 10, ∃ t : Fin cfg0.N, win0_2.index t = ![q.val, 0] :=
  (by decide +kernel : ∀ q : Fin 10, ∃ t : Fin grid0.N, win0_2.index t = ![q.val, 0])

/-- The block of `x` at point `t` is rows `5000·b … 5000·b + 4999` of `x`, `b` the point's block row: entry `y` of
    the block is the entry of `x` in row `5000·b + y₀`, column `y₁`. -/
theorem xblk_apply (c : Dev nD) (t : Fin cfg0.N) (y : S5000x128.Idx) (i : S50000x128.Idx)
    (h0 : (i 0).val = win0_2.index t (0 : Fin 2) * 5000 + (y 0).val) (h1 : (i 1).val = (y 1).val) :
    (iblk0 V c 0 t : Vec Ideal S5000x128 .f32) y = (V c main_arg0 : S50000x128.Idx → EReal) i := by
  obtain ⟨e0, e1, e2, e3, e4, e5⟩ := idx_facts t
  show V c main_arg0 (((cfg0.win 0).blk t).view.emb y) = V c main_arg0 i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The block of `w` at every point is the whole of `w`. -/
theorem wblk_apply (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_arg2 : S128x128.Idx → EReal) i := by
  obtain ⟨e0, e1, e2, e3, e4, e5⟩ := idx_facts t
  show V c main_arg2 (((cfg0.win 1).blk t).view.emb y) = V c main_arg2 i
  refine congrArg _ (funext fun a => Fin.ext ?_)
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- Row `p` of the block of `x` against column `q` of `w` is the entry of `x · w` in row `5000·b + p`, column `q`:
    the sum runs over a whole row of `x`, which lies inside the block, and a whole column of `w`. -/
theorem dense_blk (c : Dev nD) (t : Fin cfg0.N) (p : Fin 5000) (q : Fin 128) (i : S50000x128.Idx)
    (h0 : (i 0).val = win0_2.index t (0 : Fin 2) * 5000 + p.val) (h1 : (i 1).val = q.val)
    (x0 : Vec Ideal S5000x128 .f32) (x1 : Vec Ideal S128x128 .f32) (hx0 : x0 = iblk0 V c 0 t) (hx1 : x1 = iblk0 V c 1 t) :
    ∑ k : Fin 128, x0 (ix2 p k) * x1 (ix2 k q) = Cert.Gcn.dense (V c main_arg0) (V c main_arg2) i := by
  subst hx0 hx1
  refine Finset.sum_congr rfl fun k _ => ?_
  exact congrArg₂ (· * ·) (xblk_apply V c t (ix2 p k) (ix2 (i 0) k) h0 rfl) (wblk_apply V c t (ix2 k q) (ix2 k (i 1)) rfl h1)

/-! ## From the blocks to the array -/

/-- WHAT POINT `t` WRITES BACK is block `t` of `x · w`: the body's one store fills the whole staging buffer with the
    product of the point's block of `x` and `w`, entry by entry the entry of `x · w` at the block's place in the array. -/
theorem flushed_eq (c : Dev nD) (t : Fin cfg0.N) :
    (dat0 (F := Ideal) V c).flushed 2 t
      = ((cfg0.win 2).blk t).view.read (Elt Ideal) (Cert.Gcn.dense (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Gcn.dense (V c main_arg0) (V c main_arg2) (((cfg0.win 2).blk t).view.emb (ix2 p q))
  refine (pay_apply _ _ p q).trans ?_
  refine dense_blk V c t p q _ ?_ ?_ _ _ rfl rfl
  · show win0_2.index t (0 : Fin 2) * 5000 + 1 * p.val = _; omega
  · show win0_2.index t (1 : Fin 2) * 128 + 1 * q.val = _; omega

/-- An entry of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- THE BLOCKS COVER THE ARRAY: row `r` lies in the block of the point whose block row is `r / 5000`, and every point
    writes its block back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY the region leaves in its output window is `x · w` of the two arrays it finds in its input windows. -/
theorem final (c : Dev nD) :
    (dat0 (F := Ideal) V c).arrAt 2 cfg0.N = Cert.Gcn.dense (V c main_arg0) (V c main_arg2) :=
  (dat0 (F := Ideal) V c).arrAt_eq_of_cover 2 (Cert.Gcn.dense (V c main_arg0) (V c main_arg2))
    (fun t _ => flushed_eq V c t) cover

end Cert.KernelIdeal.Region0

end
-- ==== Proof.Region1Value.lean ====
/-
  What the second region of the kernel leaves in its output array, as ONE function of the arrays the region finds:
  every block of 5000 rows of the output is the same block of `relu (a + b) · w`, where `a` is the [50000,128] array the
  region reads row block by row block, `b` the [128] bias and `w` the [128,128] weights (both read whole at every
  grid point). The ten row blocks tile the 50000 rows, so the whole array ends holding that function.
-/
import proofs.«134484_j85899345920420_1_alg».proof.Proof.Gen.KernelIdeal.Frame
import proofs.«134484_j85899345920420_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The product's contraction, re-indexed by the one contracted coordinate -/

/-- The dimension numbers of the block product: [5000,128] · [128,128], axis 1 against axis 0. -/
abbrev DD : DotDims S5000x128 S128x128 S5000x128 := dot_S5000x128_S128x128_S5000x128_1_0_0_1_n_n

/-- The left operand's row is the output's row. -/
theorem lhs_row (i : S5000x128.Idx) (q : DD.contr.Idx) : (DD.lhsIdx i q 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl
/-- The left operand's column is the contracted coordinate. -/
theorem lhs_col (i : S5000x128.Idx) (q : DD.contr.Idx) : (DD.lhsIdx i q 1).val = (q ⟨0, by decide⟩).val :=
  DD.lhsIdx_val_of_single rfl i q
/-- The right operand's row is the contracted coordinate. -/
theorem rhs_row (i : S5000x128.Idx) (q : DD.contr.Idx) : (DD.rhsIdx i q 0).val = (q ⟨0, by decide⟩).val :=
  DD.rhsIdx_val_of_single rfl i q
/-- The right operand's column is the output's column. -/
theorem rhs_col (i : S5000x128.Idx) (q : DD.contr.Idx) : (DD.rhsIdx i q 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- A block product into the zero accumulator, read at `(p, q)`: the sum over the 128 contracted coordinates `k` of
    the left operand at `(p, k)` times the right operand at `(k, q)`. -/
theorem matmul_zero_apply (l : FVec Ideal S5000x128 .bf16) (r : FVec Ideal S128x128 .bf16) (p : Fin 5000) (q : Fin 128) :
    FloatOps.matmul DD none l r (constant (F := Ideal) S5000x128 .f32 0x00000000#32) (ix2 p q)
      = ∑ k : Fin 128, l (ix2 p k) * r (ix2 k q) := by
  refine (Ideal.matmul_constant_zero_apply DD none l r (ix2 p q)).trans ?_
  rw [← Equiv.sum_comp (ValueIdx.contrEquiv1 DD 128 rfl rfl).symm]
  refine Finset.sum_congr rfl fun k _ => ?_
  have hk := ValueIdx.contrEquiv1_symm_val DD 128 rfl rfl k
  have el : DD.lhsIdx (ix2 p q) ((ValueIdx.contrEquiv1 DD 128 rfl rfl).symm k) = ix2 p k := funext fun a => Fin.ext (by
    match a with
    | ⟨0, _⟩ => exact lhs_row _ _
    | ⟨1, _⟩ => exact (lhs_col _ _).trans hk)
  have er : DD.rhsIdx (ix2 p q) ((ValueIdx.contrEquiv1 DD 128 rfl rfl).symm k) = ix2 k q := funext fun a => Fin.ext (by
    match a with
    | ⟨0, _⟩ => exact (rhs_row _ _).trans hk
    | ⟨1, _⟩ => exact rhs_col _ _)
  rw [el, er]

/-! ## The body's arithmetic at an entry of the block -/

/-- The bias row laid along every row of the block: [128] → [1,128] → [5000,128], read at `(p, k)`, is the bias at `k`. -/
theorem bias_rows_apply (b : FVec Ideal S128 .f32) (p : Fin 5000) (k : Fin 128) :
    broadcastTo S5000x128 (shapeCast S1x128 b shapeCasts_S128_S1x128) broadcasts_S1x128_S5000x128 (ix2 p k) = b (ix1 k) :=
  (broadcastTo_1b_ab_apply _ broadcasts_S1x128_S5000x128 p k).trans (shapeCast_a_1a_apply b shapeCasts_S128_S1x128 (0 : Fin 1) k)

/-- WHAT THE BODY STORES at entry `(p, q)` of its block: the sum over `k` of `max (x0[p,k] + x1[k]) 0 · x2[k,q]` — the
    bias added along the row, the maximum with zero entry by entry, then the product with the weights. -/
theorem pay_apply (x0 : Vec Ideal S5000x128 .f32) (x1 : Vec Ideal S128 .f32) (x2 : Vec Ideal S128x128 .f32) (p : Fin 5000) (q : Fin 128) :
    k1_pay1 (F := Ideal) x0 x1 x2 (ix2 p q)
      = ∑ k : Fin 128, max (x0 (ix2 p k) + x1 (ix1 k)) (Ideal.ofBits .f32 0x00000000#32) * x2 (ix2 k q) := by
  unfold k1_pay1
  refine (matmul_zero_apply _ _ p q).trans ?_
  refine Finset.sum_congr rfl fun k _ => ?_
  refine congrArg₂ (· * ·) ?_ rfl
  show max (shapeCast S5000x128 x0 shapeCasts_S5000x128_S5000x128 (ix2 p k) + broadcastTo S5000x128 (shapeCast S1x128 x1 shapeCasts_S128_S1x128) broadcasts_S1x128_S5000x128 (ix2 p k)) (Ideal.ofBits .f32 0x00000000#32) = _
  rw [shapeCast_self, bias_rows_apply]

/-- The body's stored entry `(p, q)` against the whole-array function at an array index `i`: when row `p` of the
    loaded block is row `i 0` of the array `a`, the loaded bias is `b`, and column `q` of the loaded weights is column
    `i 1` of `w`, the stored entry is `relu (a + b) · w` at `i`. -/
theorem block_entry (x0 : Vec Ideal S5000x128 .f32) (x1 : Vec Ideal S128 .f32) (x2 : Vec Ideal S128x128 .f32)
    (a : Cert.Gcn.Nodes.Idx → EReal) (b : Cert.Gcn.Bias.Idx → EReal) (w : Cert.Gcn.Weights.Idx → EReal)
    (i : Cert.Gcn.Nodes.Idx) (p : Fin 5000) (q : Fin 128)
    (h0 : ∀ k : Fin 128, x0 (ix2 p k) = a (ix2 (i 0) k))
    (h1 : ∀ k : Fin 128, x1 (ix1 k) = b (ix1 k))
    (h2 : ∀ k : Fin 128, x2 (ix2 k q) = w (ix2 k (i 1))) :
    k1_pay1 (F := Ideal) x0 x1 x2 (ix2 p q) = Cert.Gcn.denseRelu a b w i := by
  rw [pay_apply]
  unfold Cert.Gcn.denseRelu
  exact Finset.sum_congr rfl fun k _ => by rw [h0 k, h1 k, h2 k]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the ten grid points: the input rows' block moves with the output's block (block
    row `t`, block column 0); the bias and the weights are read whole (block 0) at every point; the output's block row
    stays below 10. -/
theorem idx_facts : ∀ t : Fin cfg1.N, win1_0.index t (0 : Fin 2) = win1_3.index t (0 : Fin 2)
    ∧ win1_0.index t (1 : Fin 2) = 0
    ∧ win1_1.index t (0 : Fin 1) = 0
    ∧ win1_2.index t (0 : Fin 2) = 0
    ∧ win1_2.index t (1 : Fin 2) = 0
    ∧ win1_3.index t (0 : Fin 2) ≤ 9
    ∧ win1_3.index t (1 : Fin 2) = 0 :=
  (by decide +kernel : ∀ t : Fin grid1.N, _)

/-- Every one of the ten row blocks of the output is some grid point's. -/
theorem idx_onto : ∀ q : Fin 10, ∃ t : Fin cfg1.N, win1_3.index t = ![q.val, 0] :=
  (by decide +kernel : ∀ q : Fin 10, ∃ t : Fin grid1.N, win1_3.index t = ![q.val, 0])

/-- Row `p` of the input block at point `t` is row `t·5000 + p` of the array: a block's coordinate is its block index
    times the block's extent plus the coordinate inside the block. -/
theorem rows_block (c : Dev nD) (t : Fin cfg1.N) (p : Fin 5000) (k : Fin 128) (i : S50000x128.Idx)
    (hi : (i 0).val = win1_3.index t (0 : Fin 2) * 5000 + p.val) :
    iblk1 (F := Ideal) V c 0 t (ix2 p k) = V c main_v43 (ix2 (i 0) k) := by
  obtain ⟨e0, e1, -⟩ := idx_facts t
  show V c main_v43 (((cfg1.win 0).blk t).view.emb (ix2 p k)) = V c main_v43 (ix2 (i 0) k)
  refine congrArg (V c main_v43) (funext fun a => Fin.ext ?_)
  match a with
  | ⟨0, _⟩ => show win1_0.index t (0 : Fin 2) * 5000 + 1 * p.val = (i 0).val; omega
  | ⟨1, _⟩ => show win1_0.index t (1 : Fin 2) * 128 + 1 * k.val = k.val; omega

/-- The bias block at every point is the whole bias. -/
theorem bias_block (c : Dev nD) (t : Fin cfg1.N) (k : Fin 128) :
    iblk1 (F := Ideal) V c 1 t (ix1 k) = V c main_arg3 (ix1 k) := by
  obtain ⟨-, -, e2, -⟩ := idx_facts t
  show V c main_arg3 (((cfg1.win 1).blk t).view.emb (ix1 k)) = V c main_arg3 (ix1 k)
  refine congrArg (V c main_arg3) (funext fun a => Fin.ext ?_)
  match a with
  | ⟨0, _⟩ => show win1_1.index t (0 : Fin 1) * 128 + 1 * k.val = k.val; omega

/-- The weights block at every point is the whole weights array. -/
theorem weights_block (c : Dev nD) (t : Fin cfg1.N) (k : Fin 128) (q : Fin 128) (i : S50000x128.Idx)
    (hi : (i 1).val = q.val) :
    iblk1 (F := Ideal) V c 2 t (ix2 k q) = V c main_arg4 (ix2 k (i 1)) := by
  obtain ⟨-, -, -, e3, e4, -⟩ := idx_facts t
  show V c main_arg4 (((cfg1.win 2).blk t).view.emb (ix2 k q)) = V c main_arg4 (ix2 k (i 1))
  refine congrArg (V c main_arg4) (funext fun a => Fin.ext ?_)
  match a with
  | ⟨0, _⟩ => show win1_2.index t (0 : Fin 2) * 128 + 1 * k.val = k.val; omega
  | ⟨1, _⟩ => show win1_2.index t (1 : Fin 2) * 128 + 1 * q.val = (i 1).val; omega

/-- WHAT POINT `t` WRITES BACK is block `t` of `relu (a + b) · w` of the arrays the region finds. -/
theorem flushed_eq (c : Dev nD) (t : Fin cfg1.N) :
    (dat1 (F := Ideal) V c).flushed 3 t
      = ((cfg1.win 3).blk t).view.read (Elt Ideal) (Cert.Gcn.denseRelu (V c main_v43) (V c main_arg3) (V c main_arg4)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128) hz1, View.ld_unit_zero (S := S128x128) hz2]
  obtain ⟨-, -, -, -, -, -, e6⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
    = Cert.Gcn.denseRelu (V c main_v43) (V c main_arg3) (V c main_arg4) (((cfg1.win 3).blk t).view.emb (ix2 p q))
  refine block_entry _ _ _ _ _ _ _ p q (fun k => ?_) (fun k => ?_) (fun k => ?_)
  · refine rows_block V c t p k _ ?_
    show win1_3.index t (0 : Fin 2) * 5000 + 1 * p.val = _
    omega
  · exact bias_block V c t k
  · refine weights_block V c t k q _ ?_
    show win1_3.index t (1 : Fin 2) * 128 + 1 * q.val = _
    omega

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v44).slice (win1_3.rect t)).set ↔ _
  rw [View.set_slice_whole, Rect.mem_set_unit]
  exact Iff.rfl

/-- The ten blocks of 5000 rows tile the 50000 rows: row `r` is in the block of the point whose block row is `r / 5000`. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE ARRAY after the region: `relu (a + b) · w` of the arrays the region finds, as one whole-array function. -/
theorem final (c : Dev nD) :
    (dat1 (F := Ideal) V c).arrAt 3 cfg1.N = Cert.Gcn.denseRelu (V c main_v43) (V c main_arg3) (V c main_arg4) :=
  (dat1 V c).arrAt_eq_of_cover 3 _ (fun t _ => flushed_eq V c t) cover

end Cert.KernelIdeal.Region1

end
-- ==== Proof.KernelValue.lean ====
/-
  The idealized kernel's result as ONE function of its six arguments: with `e` the edge endpoints,
    out x e W1 b1 W2 b2 = agg (relu (agg (x · W1) e + b1) · W2) e + b2,
  the two matrix products the specification's whole-array functions (what the two regions leave in their output arrays),
  `agg` the host's normalized aggregation and the biases added along every row. It is the last segment boundary's
  contents at the result buffer, read back through the seven segments: the last stretch of host operations, the second
  region, the stretch between the regions, the first region, the stretches before it.
-/
import proofs.«134484_j85899345920420_1_alg».proof.Proof.HostChain
import proofs.«134484_j85899345920420_1_alg».proof.Proof.Region0Value
import proofs.«134484_j85899345920420_1_alg».proof.Proof.Region1Value

set_option maxRecDepth 16384

noncomputable section

namespace Cert.KernelIdeal.Whole

open Cert.KernelIdeal Cert.KernelIdeal.Gen Cert.KernelIdeal.Chain
open Idealize.ShloMosaic Idealize.ShloMosaic.TcCoe Idealize.SL.Sem

/-- The two-layer graph convolution on the extended reals. -/
def out (x : FVec Ideal S50000x128 .f32) (e : (⟨S2x800000, .i32⟩ : BufTy).Contents (Elt Ideal))
    (w1 : FVec Ideal S128x128 .f32) (b1 : FVec Ideal S128 .f32) (w2 : FVec Ideal S128x128 .f32) (b2 : FVec Ideal S128 .f32) :
    FVec Ideal S50000x128 .f32 :=
  addf (agg (F := Ideal) (Cert.Gcn.denseRelu (agg (F := Ideal) (Cert.Gcn.dense x w1) e) b1 w2) e) (rows (F := Ideal) b2)

variable (m : (ℓ : Loc nD τ sig) → Buf (Elt Ideal) ℓ) (ρ : Dev nD → PrngReg)

/-- What the second region finds in its first window's array: the aggregation of `x · W1`. -/
theorem entry1 (c : Dev nD) :
    V5 m ρ c main_v43
      = agg (F := Ideal) (Cert.Gcn.dense (m ((c : Thread nD τ).loc main_arg0)) (m ((c : Thread nD τ).loc main_arg2))) (m ((c : Thread nD τ).loc main_arg1)) := by
  refine (W5_v43 m ρ c).trans ?_
  rw [Cert.KernelIdeal.Region0.final (V3 m ρ) c,
    show V3 m ρ c main_arg0 = m ((c : Thread nD τ).loc main_arg0) from W3_arg0 m ρ c,
    show V3 m ρ c main_arg2 = m ((c : Thread nD τ).loc main_arg2) from W3_arg2 m ρ c]

/-- THE RESULT buffer at the last boundary is `out` of the launch memory's argument arrays. -/
theorem result (c : Dev nD) :
    W7 m ρ c (Proc.devRef .tc main_v60)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W7_v60 m ρ c).trans ?_
  rw [Cert.KernelIdeal.Region1.final (V5 m ρ) c, entry1 m ρ c,
    show V5 m ρ c main_arg3 = m ((c : Thread nD τ).loc main_arg3) from W5_arg3 m ρ c,
    show V5 m ρ c main_arg4 = m ((c : Thread nD τ).loc main_arg4) from W5_arg4 m ρ c]
  rfl

end Cert.KernelIdeal.Whole

end
-- ==== Proof.lean ====
/-
  A two-layer graph convolution on 50000 nodes with 128 features: with `e` the 800000 edges (a self loop added at every
  node), `nrm` the symmetric degree normalization of the edges and `agg h` the sum, into every edge's target row, of its
  source's row of `h` scaled by the edge's weight,
      out = agg (relu (agg (x · W1) + b1) · W2) + b2.
  The kernel computes the two matrix products in two pipelined regions of ten grid points each (a block of 5000 rows per
  point; the second region adds the bias and takes the maximum with zero before its product) and everything else on the
  host; the reference computes everything on the host, the same operations in the same order.

  On the extended reals both programs end with this one function of the arguments (`Cert.KernelIdeal.Whole.out`):
    * each region's output array is one whole-array function of what the region finds — every block of 5000 rows a
      point writes back is that block of `x · W`, respectively of `relu (a + b) · W`, a change of float format being the
      identity and a product into a zero accumulator the plain sum over the contracted coordinate; the ten blocks tile the
      array (Region0Value, Region1Value);
    * the host operations around the regions are, literally, the reference's (HostChain), so the kernel's result is `out`
      (KernelRun, KernelValue);
    * the reference's two host products are the same sums over the contracted coordinate (RefValue).
  No law that needs finiteness is used: the two sides are the same sums of the same products in the same order, so the
  precondition is never opened. The ideal pass rewrote no operation of the kernel, so the sanctioned-idealization
  conjunct has nothing to state.
-/
import proofs.«134484_j85899345920420_1_alg».proof.Defs
import proofs.«134484_j85899345920420_1_alg».proof.Proof.Gen.Kernel
import proofs.«134484_j85899345920420_1_alg».proof.Proof.Gen.Kernel.Skeleton
import proofs.«134484_j85899345920420_1_alg».proof.Proof.Gen.Kernel.Launch
import proofs.«134484_j85899345920420_1_alg».proof.Proof.Gen.Kernel.Points
import proofs.«134484_j85899345920420_1_alg».proof.Proof.Gen.Kernel.Frame
import proofs.«134484_j85899345920420_1_alg».proof.Proof.Gen.KernelIdeal
import proofs.«134484_j85899345920420_1_alg».proof.Proof.Gen.KernelIdeal.Skeleton
import proofs.«134484_j85899345920420_1_alg».proof.Proof.Gen.KernelIdeal.Launch
import proofs.«134484_j85899345920420_1_alg».proof.Proof.Gen.KernelIdeal.Points
import proofs.«134484_j85899345920420_1_alg».proof.Proof.Gen.KernelIdeal.Frame
import proofs.«134484_j85899345920420_1_alg».proof.Proof.Gen.ReferenceIdeal
import proofs.«134484_j85899345920420_1_alg».proof.Proof.Gen.Pre_finite_inputs
import proofs.«134484_j85899345920420_1_alg».proof.Proof.RefRun
import proofs.«134484_j85899345920420_1_alg».proof.Proof.RefValue
import proofs.«134484_j85899345920420_1_alg».proof.Proof.KernelRun
import proofs.«134484_j85899345920420_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- On the extended reals, from memories that agree on the arguments, both programs end with `out` of the arguments:
    the kernel's run ends with its result buffer at the last boundary's contents, which is `out`; the reference's run ends
    with its composed term, whose two host products are the specification's two whole-array functions. -/
theorem algebraic : Cert.algebraic_KernelIdeal_ReferenceIdeal := by
  intro m ρ m' ρ' _ hagree
  refine ⟨fun c => Cert.KernelIdeal.Whole.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2,
      Cert.ReferenceIdeal.RefValue.dot_relu_eq_denseRelu, Cert.ReferenceIdeal.RefValue.dot_eq_dense]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
